-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .bf16⟩
  | .hbm, ⟨7, _⟩ => ⟨S_, .bf16⟩
  | .hbm, ⟨8, _⟩ => ⟨S8192x4096, .bf16⟩
  | .hbm, ⟨9, _⟩ => ⟨S8192x4096, .bf16⟩
  | .hbm, ⟨10, _⟩ => ⟨S8192x4096, .bf16⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .bf16⟩
  | .hbm, ⟨15, _⟩ => ⟨S_, .bf16⟩
  | .hbm, ⟨16, _⟩ => ⟨S4096x4096, .bf16⟩
  | .hbm, ⟨17, _⟩ => ⟨S4096x4096, .bf16⟩
  | .hbm, ⟨18, _⟩ => ⟨S4096x4096, .bf16⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_cst_5 : Ref sig .tc := ⟨.hbm, 19, rfl⟩
abbrev main_v6 : Ref sig .tc := ⟨.hbm, 20, rfl⟩
abbrev main_v7 : Ref sig .tc := ⟨.hbm, 21, rfl⟩
abbrev main_cst_6 : Ref sig .tc := ⟨.hbm, 22, rfl⟩
abbrev main_cst_7 : Ref sig .tc := ⟨.hbm, 23, rfl⟩
abbrev main_call2_v0 : Ref sig .tc := ⟨.hbm, 24, rfl⟩
abbrev main_call2_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S_S4096 : S_.BroadcastsInDim S4096 (![] : Fin 0 → Fin S4096.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .i1⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S8192x4096, .f32⟩
  | .hbm, ⟨23, _⟩ => ⟨S8192x4096, .i1⟩
  | .hbm, ⟨24, _⟩ => ⟨S_, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_v9 : Ref sig .tc := ⟨.hbm, 23, rfl⟩
abbrev main_cst_6 : Ref sig .tc := ⟨.hbm, 24, rfl⟩
abbrev main_cst_7 : Ref sig .tc := ⟨.hbm, 25, rfl⟩
abbrev main_call2_v0 : Ref sig .tc := ⟨.hbm, 26, rfl⟩
abbrev main_call2_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the kernel body leaves behind, as the body's own arithmetic.

  The body keeps a running block in a scratch buffer. At the first step over the contraction axis it stores a zero
  block there; at every step it then reads the scratch back, adds the product of the step's two input blocks and
  stores the sum; at the last step it reads the scratch once more, adds the bias row and stores that into the output
  block. Every load and every store goes through the whole buffer, so a load reads exactly what the latest store
  wrote, and what a buffer ends with is its latest store's value. Below, for each of the three kinds of step (first,
  middle, last), the scratch's final contents — and for the last step the output block's — are written as the
  body's arithmetic applied to the step's input blocks and to what the scratch held when the step began.
-/
import proofs.«111512_j77232101917001_2_alg».proof.Proof.Gen.KernelIdeal.Frame
import Idealize.ShloMosaic.Lib.Pipeline.Value
import Idealize.ShloMosaic.Lib.Tactic

set_option maxRecDepth 16384

noncomputable section

namespace Cert.BinLayer.Kernel

open Cert.KernelIdeal Cert.KernelIdeal.Gen Idealize.ShloMosaic Idealize.ShloMosaic.TcCoe Idealize.SL.Sem Idealize.ShloMosaic.Tactic

variable {F : FTy → Type} [FloatOps F]

/-- The offsets of a whole-buffer access are all zero. -/
theorem zeros : (![0, 0] : Fin 2 → Nat) = fun _ => 0 := funext fun a => by fin_cases a <;> rfl

/-- First step: the scratch ends with the zero block plus the product of the two input blocks. -/
theorem scratch_first (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_run_names
  rw [View.canon_cons_unit_zero (S := S2048x1024) zeros]
  simp only [View.readAt_eq_ld, harg3.read_unread, harg4.read_unread, harg5.read_unread, harg7.read_unread, View.ld_unit_zero (S := S2048x1024) zeros, View.ld_unit_zero (S := S1024x1024) zeros, View.ld_unit_zero (S := S1x1024) zeros, View.readCov_unit_zero (S := S2048x1024) _ zeros]

/-- Middle step: the scratch ends with what it held plus the product of the two input blocks. -/
theorem scratch_middle (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_run_names
  rw [View.canon_cons_unit_zero (S := S2048x1024) zeros]
  simp only [View.readAt_eq_ld, harg3.read_unread, harg4.read_unread, harg5.read_unread, harg7.read_unread, View.ld_unit_zero (S := S2048x1024) zeros, View.ld_unit_zero (S := S1024x1024) zeros, View.ld_unit_zero (S := S1x1024) zeros, View.readCov_unit_zero (S := S2048x1024) _ zeros]

/-- Last step: the scratch ends with what it held plus the product of the two input blocks. -/
theorem scratch_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_run_names
  rw [View.canon_cons_unit_zero (S := S2048x1024) zeros]
  simp only [View.readAt_eq_ld, harg3.read_unread, harg4.read_unread, harg5.read_unread, harg7.read_unread, View.ld_unit_zero (S := S2048x1024) zeros, View.ld_unit_zero (S := S1024x1024) zeros, View.ld_unit_zero (S := S1x1024) zeros, View.readCov_unit_zero (S := S2048x1024) _ zeros]

/-- Last step: the output block ends with that same sum plus the bias row. -/
theorem output_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_run_names
  rw [View.canon_cons_unit_zero (S := S2048x1024) zeros]
  simp only [View.readAt_eq_ld, harg3.read_unread, harg4.read_unread, harg5.read_unread, harg7.read_unread, View.ld_unit_zero (S := S2048x1024) zeros, View.ld_unit_zero (S := S1024x1024) zeros, View.ld_unit_zero (S := S1x1024) zeros, View.readCov_unit_zero (S := S2048x1024) _ zeros]

end Cert.BinLayer.Kernel

end
-- ==== Proof.Blocks.lean ====
/-
  The arrays the kernel's region finds, and which of their entries each block holds.

  Before the region the program takes the signs of its three arguments: the region's first array is the sign matrix
  of the input (8192 by 4096), its second the sign matrix of the weights (4096 by 4096), its third the sign vector of
  the bias laid out as one row (1 by 4096). The grid has 4 x 4 x 4 points; point number t has row-block t / 16,
  column-block (t / 4) mod 4 and contraction step t mod 4. At point t the first window holds rows
  2048 (t / 16) ... and columns 1024 (t mod 4) ... of the first array, the second window rows 1024 (t mod 4) ... and
  columns 1024 ((t / 4) mod 4) ... of the second, the third window columns 1024 ((t / 4) mod 4) ... of the row.
-/
import proofs.«111512_j77232101917001_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.BinLayer.Kernel

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-! ## A matrix read at a pair of natural numbers -/

/-- The entry of a matrix of extended reals at row `r` and column `k` given as natural numbers: the entry when both
    are in range, zero otherwise (never used: every read below is in range). -/
def at2 {a b : Nat} (A : (⟨2, ![a, b]⟩ : Shape).Idx → EReal) (r k : Nat) : EReal :=
  if h : r < a ∧ k < b then A (ix2 ⟨r, h.1⟩ ⟨k, h.2⟩) else 0

theorem at2_idx {a b : Nat} (A : (⟨2, ![a, b]⟩ : Shape).Idx → EReal) (j : (⟨2, ![a, b]⟩ : Shape).Idx)
    (r k : Nat) (hr : (j 0).val = r) (hk : (j 1).val = k) : at2 A r k = A j := by
  subst hr; subst hk
  unfold at2
  rw [dif_pos ⟨(j 0).isLt, (j 1).isLt⟩]
  exact congrArg A (eq_ix2 j).symm

/-! ## The three arrays as the region finds them -/

/-- The first array: the sign matrix of the input, 1 and -1 spelt as sixteen-bit words. -/
theorem found_x (c : Dev nD) :
    (V m c main_v2 : S8192x4096.Idx → F .bf16)
      = select (cmpf .oge (m ((c : Thread nD τ).loc main_arg0)) (broadcastInDim S8192x4096 ![] bcast_S_S8192x4096 (constant (F := F) S_ .f32 0x00000000#32)))
          (broadcastInDim S8192x4096 ![] bcast_S_S8192x4096 (constant (F := F) S_ .bf16 0x3F80#16))
          (broadcastInDim S8192x4096 ![] bcast_S_S8192x4096 (constant (F := F) S_ .bf16 0xBF80#16)) := by
  dsimp only [V]
  simp only [hostOps0, hostOps0_1, hostOps0_2, hostOps0_3, hostOps0_4, hostOps0_5, hostOps0_6, List.flatten_cons, List.flatten_nil, List.append_nil, List.cons_append, List.nil_append]
  after_results_simp <;> rfl

/-- The second array: the sign matrix of the weights. -/
theorem found_w (c : Dev nD) :
    (V m c main_v5 : S4096x4096.Idx → F .bf16)
      = select (cmpf .oge (m ((c : Thread nD τ).loc main_arg1)) (broadcastInDim S4096x4096 ![] bcast_S_S4096x4096 (constant (F := F) S_ .f32 0x00000000#32)))
          (broadcastInDim S4096x4096 ![] bcast_S_S4096x4096 (constant (F := F) S_ .bf16 0x3F80#16))
          (broadcastInDim S4096x4096 ![] bcast_S_S4096x4096 (constant (F := F) S_ .bf16 0xBF80#16)) := by
  dsimp only [V]
  simp only [hostOps0, hostOps0_1, hostOps0_2, hostOps0_3, hostOps0_4, hostOps0_5, hostOps0_6, List.flatten_cons, List.flatten_nil, List.append_nil, List.cons_append, List.nil_append]
  after_results_simp <;> rfl

/-- The third array: the sign vector of the bias, recast from 4096 entries to one row of 4096. -/
theorem found_b (c : Dev nD) :
    (V m c main_v10 : S1x4096.Idx → F .f32)
      = shapeCast S1x4096 (id (select (cmpf .oge (m ((c : Thread nD τ).loc main_arg2)) (broadcastInDim S4096 ![] bcast_S_S4096 (constant (F := F) S_ .f32 0x00000000#32)))
          (broadcastInDim S4096 ![] bcast_S_S4096 (constant (F := F) S_ .f32 0x3F800000#32))
          (broadcastInDim S4096 ![] bcast_S_S4096 (constant (F := F) S_ .f32 0xBF800000#32)))) shapeCasts_S4096_S1x4096 := by
  dsimp only [V]
  simp only [hostOps0, hostOps0_1, hostOps0_2, hostOps0_3, hostOps0_4, hostOps0_5, hostOps0_6, List.flatten_cons, List.flatten_nil, List.append_nil, List.cons_append, List.nil_append]
  after_results_simp <;> rfl

/-! ## Which block each window holds at a grid point -/

/-- The block indices of the four windows at point `t`, decided over the 64 points. -/
theorem block_index : ∀ t : Fin cfg0.N,
    (win0_0.index t 0 = t.val / 16 ∧ win0_0.index t 1 = t.val % 4)
    ∧ (win0_1.index t 0 = t.val % 4 ∧ win0_1.index t 1 = t.val / 4 % 4)
    ∧ (win0_2.index t 0 = 0 ∧ win0_2.index t 1 = t.val / 4 % 4)
    ∧ (win0_3.index t 0 = t.val / 16 ∧ win0_3.index t 1 = t.val / 4 % 4) :=
  (by decide +kernel : ∀ t : Fin grid0.N,
    (win0_0.index t 0 = t.val / 16 ∧ win0_0.index t 1 = t.val % 4)
    ∧ (win0_1.index t 0 = t.val % 4 ∧ win0_1.index t 1 = t.val / 4 % 4)
    ∧ (win0_2.index t 0 = 0 ∧ win0_2.index t 1 = t.val / 4 % 4)
    ∧ (win0_3.index t 0 = t.val / 16 ∧ win0_3.index t 1 = t.val / 4 % 4))

/-- The first window's block at point `t`, at a local index, is the first array at the global index. -/
theorem block_x (c : Dev nD) (t : Fin cfg0.N) (y : S2048x1024.Idx) (j : S8192x4096.Idx)
    (h0 : (j 0).val = 2048 * (t.val / 16) + (y 0).val) (h1 : (j 1).val = 1024 * (t.val % 4) + (y 1).val) :
    (iblk m c 0 t : Vec F S2048x1024 .bf16) y = V m c main_v2 j := by
  have hi := (block_index t).1
  unfold iblk
  rw [View.read_apply]
  show V m c main_v2 _ = V m c main_v2 j
  refine congrArg (V m c main_v2) (funext fun a => Fin.ext ?_)
  match a with
  | ⟨0, _⟩ => show win0_0.index t 0 * 2048 + 1 * (y 0).val = (j 0).val; rw [hi.1, h0]; omega
  | ⟨1, _⟩ => show win0_0.index t 1 * 1024 + 1 * (y 1).val = (j 1).val; rw [hi.2, h1]; omega

/-- The second window's block at point `t`, at a local index, is the second array at the global index. -/
theorem block_w (c : Dev nD) (t : Fin cfg0.N) (y : S1024x1024.Idx) (j : S4096x4096.Idx)
    (h0 : (j 0).val = 1024 * (t.val % 4) + (y 0).val) (h1 : (j 1).val = 1024 * (t.val / 4 % 4) + (y 1).val) :
    (iblk m c 1 t : Vec F S1024x1024 .bf16) y = V m c main_v5 j := by
  have hi := (block_index t).2.1
  unfold iblk
  rw [View.read_apply]
  show V m c main_v5 _ = V m c main_v5 j
  refine congrArg (V m c main_v5) (funext fun a => Fin.ext ?_)
  match a with
  | ⟨0, _⟩ => show win0_1.index t 0 * 1024 + 1 * (y 0).val = (j 0).val; rw [hi.1, h0]; omega
  | ⟨1, _⟩ => show win0_1.index t 1 * 1024 + 1 * (y 1).val = (j 1).val; rw [hi.2, h1]; omega

/-- The third window's block at point `t`, at a local index, is the bias row at the global column. -/
theorem block_b (c : Dev nD) (t : Fin cfg0.N) (y : S1x1024.Idx) (j : S1x4096.Idx)
    (h1 : (j 1).val = 1024 * (t.val / 4 % 4) + (y 1).val) :
    (iblk m c 2 t : Vec F S1x1024 .f32) y = V m c main_v10 j := by
  have hi := (block_index t).2.2.1
  unfold iblk
  rw [View.read_apply]
  show V m c main_v10 _ = V m c main_v10 j
  refine congrArg (V m c main_v10) (funext fun a => Fin.ext ?_)
  match a with
  | ⟨0, _⟩ =>
    show win0_2.index t 0 * 1 + 1 * (y 0).val = (j 0).val
    have hy : (y 0).val < 1 := (y 0).isLt
    have hj : (j 0).val < 1 := (j 0).isLt
    rw [hi.1]; omega
  | ⟨1, _⟩ => show win0_2.index t 1 * 1024 + 1 * (y 1).val = (j 1).val; rw [hi.2, h1]; omega

/-! ## The same, at the extended reals, with the global index spelt by its two numbers -/

section AtIdeal

variable (mi : (ℓ : Loc nD τ sig) → Buf (Elt Ideal) ℓ)

theorem grid_size : cfg0.N = 64 := N_0

/-- The three arrays the region finds, as functions into the extended reals. -/
abbrev foundX (c : Dev nD) : S8192x4096.Idx → EReal := V mi c main_v2
abbrev foundW (c : Dev nD) : S4096x4096.Idx → EReal := V mi c main_v5
abbrev foundB (c : Dev nD) : S1x4096.Idx → EReal := V mi c main_v10

theorem block_x_at (c : Dev nD) (t : Fin cfg0.N) (p : Fin 2048) (k : Fin 1024) :
    (iblk mi c 0 t : Vec Ideal S2048x1024 .bf16) (ix2 p k)
      = at2 (foundX mi c) (2048 * (t.val / 16) + p.val) (1024 * (t.val % 4) + k.val) := by
  have ht : t.val < 64 := lt_of_lt_of_eq t.isLt grid_size
  have hr : 2048 * (t.val / 16) + p.val < 8192 := by have := p.isLt; omega
  have hk : 1024 * (t.val % 4) + k.val < 4096 := by have := k.isLt; omega
  unfold at2
  rw [dif_pos ⟨hr, hk⟩]
  exact block_x mi c t (ix2 p k) _ rfl rfl

theorem block_w_at (c : Dev nD) (t : Fin cfg0.N) (k : Fin 1024) (q : Fin 1024) :
    (iblk mi c 1 t : Vec Ideal S1024x1024 .bf16) (ix2 k q)
      = at2 (foundW mi c) (1024 * (t.val % 4) + k.val) (1024 * (t.val / 4 % 4) + q.val) := by
  have ht : t.val < 64 := lt_of_lt_of_eq t.isLt grid_size
  have hr : 1024 * (t.val % 4) + k.val < 4096 := by have := k.isLt; omega
  have hk : 1024 * (t.val / 4 % 4) + q.val < 4096 := by have := q.isLt; omega
  unfold at2
  rw [dif_pos ⟨hr, hk⟩]
  exact block_w mi c t (ix2 k q) _ rfl rfl

theorem block_b_at (c : Dev nD) (t : Fin cfg0.N) (q : Fin 1024) :
    (iblk mi c 2 t : Vec Ideal S1x1024 .f32) (ix2 (0 : Fin 1) q)
      = at2 (foundB mi c) 0 (1024 * (t.val / 4 % 4) + q.val) := by
  have ht : t.val < 64 := lt_of_lt_of_eq t.isLt grid_size
  have hk : 1024 * (t.val / 4 % 4) + q.val < 4096 := by have := q.isLt; omega
  unfold at2
  rw [dif_pos ⟨Nat.one_pos, hk⟩]
  exact block_b mi c t (ix2 (0 : Fin 1) q) _ rfl

end AtIdeal

end Cert.BinLayer.Kernel

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibRowBlocks.lean ====
/- General lemmas about a reduction carried block by block.

   A kernel that reduces a long axis in tiles keeps a running value: the first tile combines its own reduction with the
   neutral start, every later tile combines its reduction with what the tile before left. The lemmas below say that the value
   after the last tile is the reduction of all the tiles' reductions, for a sum in any commutative additive monoid (the extended
   reals at the ideal reading of floats) and for a maximum in any join-semilattice, and that a sum over positions
   `a · B + b` of a long axis is the sum over tiles `a` of the sums over positions `b` inside the tile. Nothing here mentions a
   program. -/
import Mathlib.Algebra.BigOperators.Fin
import Mathlib.Data.Finset.Range
import Mathlib.Algebra.BigOperators.Group.Finset.Basic
import Mathlib.Order.Lattice
import Mathlib.Data.Finset.Lattice.Fold
import Mathlib.Logic.Equiv.Fin.Basic

namespace RowBlocks

open Finset

/-- A running sum: `S 0 = z + s 0` and `S (t + 1) = S t + s (t + 1)` up to tile `n` give `S n = z + ∑ t ≤ n, s t`. -/
theorem running_sum {α : Type*} [AddCommMonoid α] (s S : ℕ → α) (z : α) (n : ℕ) (h0 : S 0 = z + s 0)
    (hs : ∀ t, t < n → S (t + 1) = S t + s (t + 1)) : S n = z + ∑ t ∈ range (n + 1), s t := by
  induction n with
  | zero => simpa using h0
  | succ k ih =>
    rw [hs k (Nat.lt_succ_self k), ih fun t ht => hs t (Nat.lt_succ_of_lt ht), sum_range_succ (fun t => s t) (k + 1), add_assoc]

/-- A running maximum: `M 0 = z ⊔ m 0` and `M (t + 1) = M t ⊔ m (t + 1)` up to tile `n` give `M n = z ⊔ sup_{t ≤ n} m t`. -/
theorem running_sup {β : Type*} [SemilatticeSup β] (m M : ℕ → β) (z : β) (n : ℕ) (h0 : M 0 = z ⊔ m 0)
    (hs : ∀ t, t < n → M (t + 1) = M t ⊔ m (t + 1)) : M n = z ⊔ (range (n + 1)).sup' nonempty_range_add_one m := by
  induction n with
  | zero => simpa using h0
  | succ k ih =>
    rw [hs k (Nat.lt_succ_self k), ih fun t ht => hs t (Nat.lt_succ_of_lt ht), sup_assoc]
    congr 1
    apply le_antisymm
    · refine sup_le (sup'_le _ _ fun t ht => le_sup' m (mem_range.mpr (Nat.lt_succ_of_lt (mem_range.mp ht)))) (le_sup' m (mem_range.mpr (Nat.lt_succ_self _)))
    · refine sup'_le _ _ fun t ht => ?_
      rcases Nat.lt_succ_iff_lt_or_eq.mp (mem_range.mp ht) with h | h
      · exact le_sup_of_le_left (le_sup' m (mem_range.mpr h))
      · subst h; exact le_sup_right

/-- A sum over the positions of a long axis of extent `A · B`, position `a · B + b` being position `b` of tile `a`, is the sum
    over the tiles of the sums inside each tile. -/
theorem sum_tiles {α : Type*} [AddCommMonoid α] (A B : ℕ) (f : Fin (A * B) → α) :
    ∑ k : Fin (A * B), f k = ∑ a : Fin A, ∑ b : Fin B, f (finProdFinEquiv (a, b)) := by
  rw [← Fintype.sum_prod_type' (fun a b => f (finProdFinEquiv (a, b)))]
  exact (Equiv.sum_comp finProdFinEquiv f).symm

end RowBlocks
-- ==== Proof.Spec.lean ====
/-
  The binarized dense layer as one function of its three argument arrays, on the extended reals.

  Every entry of the input, of the weight matrix and of the bias is replaced by its sign: 1 where the entry is at
  least zero, -1 elsewhere. The layer's value at row r and column c is then

      sum over k < 4096 of  sign x[r,k] * sign w[k,c]   +   sign b[c].

  Both programs compute this. One of them spells 1 and -1 as sixteen-bit words and the other as thirty-two-bit
  words; all four words denote the same two numbers. One of them adds the products tile by tile (four tiles of 1024
  positions, the running value starting from zero); regrouping a finite sum of extended reals needs no finiteness.
  The other subtracts the input entry from the value and adds it back, which changes nothing when that entry is a
  real number.
-/
import Idealize.ShloMosaic.PureOps.Ideal
import Idealize.ShloMosaic.PureOps.Ideal.Laws
import Idealize.ShloMosaic.Lib.ValueIdx
import proofs.«111512_j77232101917001_2_alg».proof.Proof.LibRowBlocks

noncomputable section

namespace Cert.BinLayer

open Idealize.ShloMosaic Idealize.ShloMosaic.ValueIdx

/-- The sign of an entry: 1 where it is at least zero, -1 elsewhere (zero spelt as the word the programs compare
    against, the comparison the programs' own). -/
def sgn (x : Ideal .f32) : EReal :=
  Scalar.select (FloatOps.cmpf (F := Ideal) .oge x (FloatOps.ofBits (F := Ideal) .f32 0x00000000#32)) (1 : EReal) (-1 : EReal)

/-- The layer: at row `i 0` and column `i 1`, the sum over `k` of the products of signs, plus the bias's sign. -/
def layer (x : (⟨2, ![8192, 4096]⟩ : Shape).Idx → Ideal .f32) (w : (⟨2, ![4096, 4096]⟩ : Shape).Idx → Ideal .f32)
    (b : (⟨1, ![4096]⟩ : Shape).Idx → Ideal .f32) : (⟨2, ![8192, 4096]⟩ : Shape).Idx → EReal :=
  fun i => (∑ k : Fin 4096, sgn (x (ix2 (i 0) k)) * sgn (w (ix2 k (i 1)))) + sgn (b (ix1 (i 1)))

/-! ## The four words for 1 and -1 -/

theorem one_f32 : Ideal.ofBits .f32 0x3F800000#32 = 1 := by
  simp [Ideal.ofBits, Ideal.ieee, -EReal.coe_mul]; norm_num

theorem negOne_f32 : Ideal.ofBits .f32 0xBF800000#32 = -1 := by
  simp [Ideal.ofBits, Ideal.ieee, -EReal.coe_mul]; norm_num

theorem one_bf16 : Ideal.ofBits .bf16 0x3F80#16 = 1 := by
  simp [Ideal.ofBits, Ideal.ieee, -EReal.coe_mul]; norm_num

theorem negOne_bf16 : Ideal.ofBits .bf16 0xBF80#16 = -1 := by
  simp [Ideal.ofBits, Ideal.ieee, -EReal.coe_mul]; norm_num

theorem zero_f32 : Ideal.ofBits .f32 0x00000000#32 = 0 := by
  simp [Ideal.ofBits, Ideal.ieee]

/-! ## Regrouping the sum over k into four tiles of 1024 -/

/-- A sum over 4096 positions is the sum over the four tiles of the sums over the 1024 positions inside each tile,
    position `1024 * a + b` being position `b` of tile `a`. -/
theorem sum_four_tiles (f : Fin 4096 → EReal) :
    ∑ k : Fin 4096, f k
      = ∑ a ∈ Finset.range 4, ∑ b : Fin 1024, (if h : 1024 * a + b.val < 4096 then f ⟨1024 * a + b.val, h⟩ else 0) := by
  rw [Finset.sum_range (fun a => ∑ b : Fin 1024, (if h : 1024 * a + b.val < 4096 then f ⟨1024 * a + b.val, h⟩ else 0))]
  rw [RowBlocks.sum_tiles 4 1024 f]
  refine Finset.sum_congr rfl fun a _ => Finset.sum_congr rfl fun b _ => ?_
  have hlt : 1024 * a.val + b.val < 4096 := by have := a.isLt; have := b.isLt; omega
  rw [dif_pos hlt]
  congr 1
  apply Fin.ext
  show b.val + 1024 * a.val = 1024 * a.val + b.val
  omega

/-- Subtracting a real number and adding it back changes nothing. -/
theorem sub_add_real (y x : EReal) (hx : ∃ r : ℝ, x = (r : EReal)) : y - x + x = y := by
  obtain ⟨r, rfl⟩ := hx
  exact EReal.sub_add_cancel

end Cert.BinLayer

end
-- ==== Proof.Payloads.lean ====
/-
  The three values the kernel's body stores, read at one entry, on the extended reals.

  The body works on a tile of 2048 rows and 1024 columns. It stores (1) the zero tile; (2) the running tile plus
  the product of a 2048-by-1024 tile of the first operand with a 1024-by-1024 tile of the second, the product
  being accumulated from zero; (3) the running tile plus one row of 1024 numbers repeated down the rows. Read at
  row p and column q these are 0, acc[p,q] + sum over k of x0[p,k] * x1[k,q], and acc[p,q] + x2[0,q].
-/
import proofs.«111512_j77232101917001_2_alg».proof.Proof.Gen.KernelIdeal.Skeleton
import proofs.«111512_j77232101917001_2_alg».proof.Proof.LibMatmulSum
import proofs.«111512_j77232101917001_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.BinLayer.Pay

open Cert.KernelIdeal Cert.KernelIdeal.Gen Idealize.ShloMosaic Idealize.ShloMosaic.ValueIdx

/-! ## Which coordinate of each operand's index comes from where, in the tile product -/

/-- The left operand's row is the result's row. -/
theorem lhs_row (i : S2048x1024.Idx) (c : dot_S2048x1024_S1024x1024_S2048x1024_1_0_0_1_n_n.contr.Idx) :
    (dot_S2048x1024_S1024x1024_S2048x1024_1_0_0_1_n_n.lhsIdx i c 0).val = (i 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- The left operand's column is the summation position. -/
theorem lhs_col (i : S2048x1024.Idx) (c : dot_S2048x1024_S1024x1024_S2048x1024_1_0_0_1_n_n.contr.Idx) :
    (dot_S2048x1024_S1024x1024_S2048x1024_1_0_0_1_n_n.lhsIdx i c 1).val = (c ⟨0, by decide⟩).val :=
  dot_S2048x1024_S1024x1024_S2048x1024_1_0_0_1_n_n.lhsIdx_val_of_single rfl i c

/-- The right operand's row is the summation position. -/
theorem rhs_row (i : S2048x1024.Idx) (c : dot_S2048x1024_S1024x1024_S2048x1024_1_0_0_1_n_n.contr.Idx) :
    (dot_S2048x1024_S1024x1024_S2048x1024_1_0_0_1_n_n.rhsIdx i c 0).val = (c ⟨0, by decide⟩).val :=
  dot_S2048x1024_S1024x1024_S2048x1024_1_0_0_1_n_n.rhsIdx_val_of_single rfl i c

/-- The right operand's column is the result's column. -/
theorem rhs_col (i : S2048x1024.Idx) (c : dot_S2048x1024_S1024x1024_S2048x1024_1_0_0_1_n_n.contr.Idx) :
    (dot_S2048x1024_S1024x1024_S2048x1024_1_0_0_1_n_n.rhsIdx i c 1).val = (i 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- The tile product accumulated from zero, read at row p and column q: the sum over k of the operands' products. -/
theorem tile_product_at (l : FVec Ideal S2048x1024 .bf16) (r : FVec Ideal S1024x1024 .bf16) (p : Fin 2048) (q : Fin 1024) :
    matmul (F := Ideal) dot_S2048x1024_S1024x1024_S2048x1024_1_0_0_1_n_n none l r
        (constant (F := Ideal) S2048x1024 .f32 0x00000000#32) (ix2 p q)
      = ∑ kk : Fin 1024, l (ix2 p kk) * r (ix2 kk q) :=
  Cert.GraphConv.matmul_zero_sum (R := 2048) (K := 1024) (N := 1024)
    dot_S2048x1024_S1024x1024_S2048x1024_1_0_0_1_n_n none rfl rfl lhs_row lhs_col rhs_row rhs_col l r (ix2 p q)

/-! ## The three stored values -/

/-- The first stored value is zero everywhere. -/
theorem pay1_at (y : S2048x1024.Idx) : k0_pay1 (F := Ideal) y = 0 := by
  unfold k0_pay1
  rw [shapeCast_self]
  exact zero_f32

/-- The second stored value: the running tile plus the tile product. -/
theorem pay2_at (acc : Vec Ideal S2048x1024 .f32) (x0 : Vec Ideal S2048x1024 .bf16) (x1 : Vec Ideal S1024x1024 .bf16)
    (p : Fin 2048) (q : Fin 1024) :
    k0_pay2 (F := Ideal) acc x0 x1 (ix2 p q) = acc (ix2 p q) + ∑ kk : Fin 1024, x0 (ix2 p kk) * x1 (ix2 kk q) := by
  unfold k0_pay2
  rw [shapeCast_self (addf _ _), shapeCast_self x0, shapeCast_self x1]
  refine (addf_apply _ _ _).trans ?_
  exact congrArg (fun t => acc (ix2 p q) + t) (tile_product_at x0 x1 p q)

/-- The third stored value: the running tile plus the one row, repeated down the rows. -/
theorem pay3_at (acc : Vec Ideal S2048x1024 .f32) (x2 : Vec Ideal S1x1024 .f32) (p : Fin 2048) (q : Fin 1024) :
    k0_pay3 (F := Ideal) acc x2 (ix2 p q) = acc (ix2 p q) + x2 (ix2 (0 : Fin 1) q) := by
  unfold k0_pay3
  rw [shapeCast_self x2]
  refine (addf_apply _ _ _).trans ?_
  exact congrArg (fun t => acc (ix2 p q) + t) (broadcastTo_1b_ab_apply x2 broadcasts_S1x1024_S2048x1024 p q)

end Cert.BinLayer.Pay

end
-- ==== Proof.Accumulate.lean ====
/-
  The running block, step by step, and what the last step writes out.

  Fix a grid point number n. Its row-block is n / 16, its column-block (n / 4) mod 4, its step over the contraction
  axis n mod 4. The product of the point's two input blocks, at local row p and local column q, is the sum over the
  1024 positions kk of the step's tile of

      X[2048 (n / 16) + p, 1024 (n mod 4) + kk] * W[1024 (n mod 4) + kk, 1024 ((n / 4) mod 4) + q],

  X and W the two sign matrices the region finds. The four points 4 q' ... 4 q' + 3 share their row-block and
  column-block; the first of them leaves zero plus its product in the scratch, each later one what the scratch held
  plus its product. So after the point with step s the scratch holds zero plus the sum of the products of steps
  0 ... s, and the last of the four writes out that sum over all four steps plus the bias row's entry.
-/
import proofs.«111512_j77232101917001_2_alg».proof.Proof.Gen.KernelIdeal.Value
import proofs.«111512_j77232101917001_2_alg».proof.Proof.Pieces
import proofs.«111512_j77232101917001_2_alg».proof.Proof.Blocks
import proofs.«111512_j77232101917001_2_alg».proof.Proof.Payloads

set_option maxRecDepth 16384

noncomputable section

namespace Cert.BinLayer.Kernel

open Cert.KernelIdeal Cert.KernelIdeal.Gen Idealize.ShloMosaic Idealize.ShloMosaic.TcCoe Idealize.SL.Sem
open Idealize.ShloMosaic.ValueIdx Cert.BinLayer.Pay

variable (m : (ℓ : Loc nD τ sig) → Buf (Elt Ideal) ℓ)

/-- The product of the two input blocks of point `n`, at a local index, over the arrays the region finds. -/
def tileProduct (c : Dev nD) (n : ℕ) (y : S2048x1024.Idx) : EReal :=
  ∑ kk : Fin 1024,
    at2 (foundX m c) (2048 * (n / 16) + (y 0).val) (1024 * (n % 4) + kk.val)
      * at2 (foundW m c) (1024 * (n % 4) + kk.val) (1024 * (n / 4 % 4) + (y 1).val)

/-- One step of the body at point `t`: what the scratch held, plus the point's product. -/
theorem step_at (c : Dev nD) (t : Fin cfg0.N) (acc : Vec Ideal S2048x1024 .f32) (y : S2048x1024.Idx) :
    k0_pay2 (F := Ideal) acc (iblk m c 0 t) (iblk m c 1 t) y = acc y + tileProduct m c t.val y := by
  obtain ⟨p, q, rfl⟩ : ∃ (p : Fin 2048) (q : Fin 1024), y = ix2 p q := ⟨y 0, y 1, eq_ix2 y⟩
  refine (pay2_at acc (iblk m c 0 t) (iblk m c 1 t) p q).trans ?_
  unfold tileProduct
  refine congrArg (fun s => acc (ix2 p q) + s) (Finset.sum_congr rfl fun kk _ => ?_)
  rw [block_x_at m c t p kk, block_w_at m c t kk q]

/-- The scratch after point `t`: zero plus the products of the steps so far of `t`'s group of four points. -/
theorem scratch_after (c : Dev nD) (t : Fin cfg0.N) (y : S2048x1024.Idx) :
    (outsAt0 m c t.val t.isLt).2 y
      = 0 + ∑ s ∈ Finset.range (t.val % 4 + 1), tileProduct m c (4 * (t.val / 4) + s) y := by
  have hN : cfg0.N = 64 := N_0
  rw [Value.soutsAt0_0_eq m c t]
  refine Pipeline.accAt_add_apply _ _ (fun _ => (0 : EReal)) (fun n y => tileProduct m c n y) (4 * (t.val / 4)) 3 ?_ ?_
    (t.val % 4) (by omega) _ y
  · intro h i
    have h0 : 4 * (t.val / 4) % 4 = 0 := by omega
    have h1 : ¬4 * (t.val / 4) % 4 = 3 := by omega
    unfold Value.scAt0_0
    rw [dif_pos h0, dif_neg h1, scratch_first]
    refine (step_at m c ⟨4 * (t.val / 4), h⟩ _ i).trans ?_
    rw [pay1_at]
  · intro n h acc i hb he
    have h0 : ¬n % 4 = 0 := by omega
    unfold Value.scAt0_0
    rw [dif_neg h0]
    by_cases h1 : n % 4 = 3
    · rw [dif_pos h1, scratch_last]
      exact step_at m c ⟨n, h⟩ acc i
    · rw [dif_neg h1, scratch_middle]
      exact step_at m c ⟨n, h⟩ acc i

/-- The output block after a point that writes back (step 3): zero plus the four products of its group, plus the
    bias row's entry at the block's column. -/
theorem output_after (c : Dev nD) (t : Fin cfg0.N) (h3 : t.val % 4 = 3) (y : S2048x1024.Idx) :
    (outsAt0 m c t.val t.isLt).1 y
      = (0 + ∑ s ∈ Finset.range 4, tileProduct m c (4 * (t.val / 4) + s) y)
        + at2 (foundB m c) 0 (1024 * (t.val / 4 % 4) + (y 1).val) := by
  have h0 : ¬t.val % 4 = 0 := by omega
  have e2 := scratch_after m c t y
  rw [h3] at e2
  rw [← e2]
  rw [outsAt0_C m c t h0 h3]
  dsimp only
  rw [output_last, scratch_last]
  obtain ⟨p, q, rfl⟩ : ∃ (p : Fin 2048) (q : Fin 1024), y = ix2 p q := ⟨y 0, y 1, eq_ix2 y⟩
  refine (pay3_at _ (iblk m c 2 t) p q).trans ?_
  rw [block_b_at m c t q]

end Cert.BinLayer.Kernel

end
-- ==== Proof.FoundLayer.lean ====
/-
  The layer over the arrays the region finds is the specification's layer of the arguments.

  Before the region the program replaces every entry of its three arguments by its sign. The first two arrays the
  region finds hold, at each index, the sign of the argument's entry at that index, the numbers 1 and -1 being spelt
  as sixteen-bit words; the third holds the signs of the bias laid out as one row, spelt as thirty-two-bit words.
  All four words denote 1 and -1, so the sum over k of products of the first two arrays plus the row's entry is the
  specification's layer.
-/
import proofs.«111512_j77232101917001_2_alg».proof.Proof.Blocks
import proofs.«111512_j77232101917001_2_alg».proof.Proof.Spec

noncomputable section

namespace Cert.BinLayer.Kernel

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The first array the region finds holds the sign of the input's entry at every index. -/
theorem sign_of_x (c : Dev nD) (j : S8192x4096.Idx) :
    foundX m c j = sgn (m ((c : Thread nD τ).loc main_arg0) j) := by
  refine (congrFun (found_x m c) j).trans ?_
  show Scalar.select (FloatOps.cmpf (F := Ideal) .oge (m ((c : Thread nD τ).loc main_arg0) j) (FloatOps.ofBits (F := Ideal) .f32 0x00000000#32))
      (Ideal.ofBits .bf16 0x3F80#16) (Ideal.ofBits .bf16 0xBF80#16) = _
  rw [one_bf16, negOne_bf16]
  rfl

/-- The second array holds the sign of the weight's entry at every index. -/
theorem sign_of_w (c : Dev nD) (j : S4096x4096.Idx) :
    foundW m c j = sgn (m ((c : Thread nD τ).loc main_arg1) j) := by
  refine (congrFun (found_w m c) j).trans ?_
  show Scalar.select (FloatOps.cmpf (F := Ideal) .oge (m ((c : Thread nD τ).loc main_arg1) j) (FloatOps.ofBits (F := Ideal) .f32 0x00000000#32))
      (Ideal.ofBits .bf16 0x3F80#16) (Ideal.ofBits .bf16 0xBF80#16) = _
  rw [one_bf16, negOne_bf16]
  rfl

/-- The third array, one row, holds at column `q` the sign of the bias's entry `q`. -/
theorem sign_of_b (c : Dev nD) (q : Fin 4096) :
    foundB m c (ix2 (0 : Fin 1) q) = sgn (m ((c : Thread nD τ).loc main_arg2) (ix1 q)) := by
  refine (congrFun (found_b m c) (ix2 (0 : Fin 1) q)).trans ?_
  refine (shapeCast_apply _ shapeCasts_S4096_S1x4096 (ix2 (0 : Fin 1) q) (ix1 q) ?_).trans ?_
  · rw [Shape.rowMajor_val_one, Shape.rowMajor_val_two]
    show q.val = 0 * 4096 + q.val
    omega
  · show Scalar.select (FloatOps.cmpf (F := Ideal) .oge (m ((c : Thread nD τ).loc main_arg2) (ix1 q)) (FloatOps.ofBits (F := Ideal) .f32 0x00000000#32))
        (Ideal.ofBits .f32 0x3F800000#32) (Ideal.ofBits .f32 0xBF800000#32) = _
    rw [one_f32, negOne_f32]
    rfl

/-- The layer over the three arrays the region finds is the specification's layer of the three arguments. -/
theorem found_layer (c : Dev nD) (i : S8192x4096.Idx) :
    (∑ k : Fin 4096, foundX m c (ix2 (i 0) k) * foundW m c (ix2 k (i 1))) + foundB m c (ix2 (0 : Fin 1) (i 1))
    = Cert.BinLayer.layer (m ((c : Thread nD τ).loc main_arg0)) (m ((c : Thread nD τ).loc main_arg1)) (m ((c : Thread nD τ).loc main_arg2)) i := by
  have hs : (∑ k : Fin 4096, foundX m c (ix2 (i 0) k) * foundW m c (ix2 k (i 1)))
      = ∑ k : Fin 4096, sgn (m ((c : Thread nD τ).loc main_arg0) (ix2 (i 0) k)) * sgn (m ((c : Thread nD τ).loc main_arg1) (ix2 k (i 1))) :=
    Finset.sum_congr rfl fun k _ => by rw [sign_of_x, sign_of_w]
  rw [hs, sign_of_b m c (i 1)]
  rfl

/-- The same with every entry spelt by its row and column as natural numbers. -/
theorem found_layer_at2 (c : Dev nD) (i : S8192x4096.Idx) :
    (∑ k : Fin 4096, at2 (foundX m c) (i 0).val k.val * at2 (foundW m c) k.val (i 1).val) + at2 (foundB m c) 0 (i 1).val
    = Cert.BinLayer.layer (m ((c : Thread nD τ).loc main_arg0)) (m ((c : Thread nD τ).loc main_arg1)) (m ((c : Thread nD τ).loc main_arg2)) i := by
  refine Eq.trans ?_ (found_layer m c i)
  rw [at2_idx (foundB m c) (ix2 (0 : Fin 1) (i 1)) 0 (i 1).val rfl rfl]
  refine congrArg (fun s => s + foundB m c (ix2 (0 : Fin 1) (i 1))) (Finset.sum_congr rfl fun k _ => ?_)
  rw [at2_idx (foundX m c) (ix2 (i 0) k) (i 0).val k.val rfl rfl, at2_idx (foundW m c) (ix2 k (i 1)) k.val (i 1).val rfl rfl]

end Cert.BinLayer.Kernel

end
-- ==== Proof.Cover.lean ====
/-
  Every entry of the result lies in the block of a grid point that writes its block back.

  The result has 8192 rows and 4096 columns and is written in blocks of 2048 rows and 1024 columns. Grid point
  number t works on row-block t / 16 and column-block (t / 4) mod 4, and writes the block back exactly when
  t mod 4 = 3. The entry at row r and column s therefore lies in the block of the point numbered
  16 (r / 2048) + 4 (s / 1024) + 3, which is one of the 64 points and writes back.
-/
import proofs.«111512_j77232101917001_2_alg».proof.Proof.Blocks

noncomputable section

namespace Cert.BinLayer.Kernel

open Cert.KernelIdeal Cert.KernelIdeal.Gen Idealize.ShloMosaic Idealize.ShloMosaic.TcCoe Idealize.SL.Sem Idealize.ShloMosaic.ValueIdx

/-- An index of the result is in point `t`'s block iff each coordinate is in the block's range on its axis. -/
theorem mem_out_block (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v11).slice (win0_3.rect t)).set ↔ _
  rw [View.set_slice_whole, Rect.mem_set_unit]
  exact Iff.rfl

/-- Every index of the result is in the block of some point that writes back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : 16 * ((i 0).val / 2048) + 4 * ((i 1).val / 1024) + 3 < cfg0.N :=
    lt_of_lt_of_eq (by omega : 16 * ((i 0).val / 2048) + 4 * ((i 1).val / 1024) + 3 < 64) grid_size.symm
  obtain ⟨t, ht⟩ : ∃ t : Fin cfg0.N, t.val = 16 * ((i 0).val / 2048) + 4 * ((i 1).val / 1024) + 3 := ⟨⟨_, hlt⟩, rfl⟩
  obtain ⟨-, -, -, q0, q1⟩ := block_index t
  refine ⟨t, (flush0_3 t).mpr (by omega), ?_⟩
  rw [mem_out_block]
  intro a
  match a with
  | ⟨0, _⟩ =>
    show win0_3.index t 0 * 2048 ≤ (i 0).val ∧ (i 0).val < win0_3.index t 0 * 2048 + 2048
    rw [q0]; omega
  | ⟨1, _⟩ =>
    show win0_3.index t 1 * 1024 ≤ (i 1).val ∧ (i 1).val < win0_3.index t 1 * 1024 + 1024
    rw [q1]; omega

end Cert.BinLayer.Kernel

end
-- ==== Proof.Final.lean ====
/-
  The result array after the kernel's run is the layer of the three arguments.

  The grid's points come in groups of four that share a block of the result; only the last point of a group writes
  its output block back. What it writes, at local row p and column q, is zero plus the four tile products of the
  group plus the bias row's entry; the four tile products are the four quarters of the sum over all 4096 positions
  of the contraction axis, so the entry written is the layer's value at the block's global row and column. The
  blocks of the writing points tile the whole result, so the result array ends as the layer everywhere.
-/
import proofs.«111512_j77232101917001_2_alg».proof.Proof.Gen.KernelIdeal.Value
import proofs.«111512_j77232101917001_2_alg».proof.Proof.Accumulate
import proofs.«111512_j77232101917001_2_alg».proof.Proof.FoundLayer
import proofs.«111512_j77232101917001_2_alg».proof.Proof.Cover
import proofs.«111512_j77232101917001_2_alg».proof.Proof.Spec

set_option maxRecDepth 16384

noncomputable section

namespace Cert.BinLayer.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the result array ends holding: the layer of the three arguments. -/
abbrev result (c : Dev nD) : Buf (Elt Ideal) ((c : Thread nD τ).loc main_v11) :=
  Cert.BinLayer.layer (m ((c : Thread nD τ).loc main_arg0)) (m ((c : Thread nD τ).loc main_arg1)) (m ((c : Thread nD τ).loc main_arg2))

/-- The four tile products of a group of points add up to the whole contraction, at the global row and column
    of the group's block. -/
theorem group_sum (c : Dev nD) (t : Fin cfg0.N) (y : S2048x1024.Idx) (j : S8192x4096.Idx)
    (h0 : (j 0).val = 2048 * (t.val / 16) + (y 0).val) (h1 : (j 1).val = 1024 * (t.val / 4 % 4) + (y 1).val) :
    ∑ s ∈ Finset.range 4, tileProduct m c (4 * (t.val / 4) + s) y
      = ∑ k : Fin 4096, foundX m c (ix2 (j 0) k) * foundW m c (ix2 k (j 1)) := by
  rw [Cert.BinLayer.sum_four_tiles]
  refine Finset.sum_congr rfl fun s hs => ?_
  have hs4 : s < 4 := Finset.mem_range.mp hs
  unfold tileProduct
  refine Finset.sum_congr rfl fun kk _ => ?_
  have hkk : kk.val < 1024 := kk.isLt
  have hk : 1024 * s + kk.val < 4096 := by omega
  rw [dif_pos hk]
  rw [at2_idx (foundX m c) (ix2 (j 0) ⟨1024 * s + kk.val, hk⟩) _ _
      (by show (j 0).val = _; rw [h0]; omega) (by show 1024 * s + kk.val = _; omega),
    at2_idx (foundW m c) (ix2 ⟨1024 * s + kk.val, hk⟩ (j 1)) _ _
      (by show 1024 * s + kk.val = _; omega) (by show (j 1).val = _; rw [h1]; omega)]

/-- The output block after a point that writes back, at a local index, is the layer at the global index. -/
theorem output_is_layer (c : Dev nD) (t : Fin cfg0.N) (h3 : t.val % 4 = 3) (y : S2048x1024.Idx) (j : S8192x4096.Idx)
    (h0 : (j 0).val = 2048 * (t.val / 16) + (y 0).val) (h1 : (j 1).val = 1024 * (t.val / 4 % 4) + (y 1).val) :
    (outsAt0 m c t.val t.isLt).1 y = result m c j := by
  rw [output_after m c t h3 y, zero_add, group_sum m c t y j h0 h1,
    at2_idx (foundB m c) (ix2 (0 : Fin 1) (j 1)) 0 _ rfl (by show (j 1).val = _; exact h1)]
  exact found_layer m c j

/-- What a writing point writes back is its block of the layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, e0, e1⟩ := block_index t
  rw [Value.flushed3]
  funext y
  rw [View.read_apply]
  refine output_is_layer m c t h3 y _ ?_ ?_
  · show win0_3.index t 0 * 2048 + 1 * (y 0).val = _
    rw [e0]; omega
  · show win0_3.index t 1 * 1024 + 1 * (y 1).val = _
    rw [e1]; omega

/-- The result array after the run. -/
theorem final (c : Dev nD) : (dats m 0 c).arrAt 3 cfg0.N = result m c :=
  (dats m 0 c).arrAt_eq_of_cover 3 (result m c) (flushed_eq m c) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.BinLayer.Kernel

end
-- ==== Proof.RefLayer.lean ====
/-
  The reference program's last stage is the layer.

  The reference takes the sign of every entry of its three arguments (1 where the entry is at least zero, -1
  elsewhere), contracts the two sign matrices over their shared axis, adds the bias's sign along the rows, then
  subtracts the first argument's entry and adds it back. Read at one index (row r, column c) this is

      ((sum over k of sign x[r,k] * sign w[k,c]) + sign b[c]) - x[r,c] + x[r,c],

  and the subtraction followed by the addition changes nothing when x[r,c] is a real number.
-/
import proofs.«111512_j77232101917001_2_alg».proof.Proof.Gen.ReferenceIdeal.Read
import proofs.«111512_j77232101917001_2_alg».proof.Proof.Spec

noncomputable section

namespace Cert.BinLayer.Ref

open Idealize.ShloMosaic Idealize.ShloMosaic.ValueIdx Cert.ReferenceIdeal Cert.ReferenceIdeal.Read

/-- The left operand of the contraction is read at row `i 0`, position `k`. -/
theorem lidx_eq (i : S8192x4096.Idx) (k : Fin 4096) :
    lidx_main_v12 i k = ix2 (n0 := 8192) (n1 := 4096) (i 0) k :=
  funext fun a => Fin.ext (by match a with | ⟨0, _⟩ => rfl | ⟨1, _⟩ => rfl)

/-- The right operand of the contraction is read at position `k`, column `i 1`. -/
theorem ridx_eq (i : S8192x4096.Idx) (k : Fin 4096) :
    ridx_main_v12 i k = ix2 (n0 := 4096) (n1 := 4096) k (i 1) :=
  funext fun a => Fin.ext (by match a with | ⟨0, _⟩ => rfl | ⟨1, _⟩ => rfl)

/-- The bias, spread first to one row and then to every row, is read at column `i 1`. -/
theorem bidx_eq (i : S8192x4096.Idx) : idx_main_v13 (idx_main_v14 i) = ix1 (n := 4096) (i 1) :=
  funext fun a => Fin.ext (by match a with | ⟨0, _⟩ => rfl)

/-- The sign matrix of the first argument, at an index. -/
theorem sign_x (x0 : (⟨S8192x4096, .f32⟩ : BufTy).Contents (Elt Ideal)) (j : S8192x4096.Idx) :
    val_main_v11 (F := Ideal) x0 j = sgn (x0 j) := by
  rw [val_main_v11_apply, val_main_v10_apply, val_main_v9_apply, val_main_v8_apply, val_main_cst_5_apply,
    val_main_call2_v0_apply, val_main_cst_6_apply, val_main_call2_v1_apply, val_main_cst_7_apply,
    Ideal.ofBits_def (φ := .f32) 0x3F800000#32, Ideal.ofBits_def (φ := .f32) 0xBF800000#32, one_f32, negOne_f32]
  rfl

/-- The sign matrix of the second argument, at an index. -/
theorem sign_w (x1 : (⟨S4096x4096, .f32⟩ : BufTy).Contents (Elt Ideal)) (j : S4096x4096.Idx) :
    val_main_v3 (F := Ideal) x1 j = sgn (x1 j) := by
  rw [val_main_v3_apply, val_main_v2_apply, val_main_v1_apply, val_main_v0_apply, val_main_cst_apply,
    val_main_call0_v0_apply, val_main_cst_0_apply, val_main_call0_v1_apply, val_main_cst_1_apply,
    Ideal.ofBits_def (φ := .f32) 0x3F800000#32, Ideal.ofBits_def (φ := .f32) 0xBF800000#32, one_f32, negOne_f32]
  rfl

/-- The sign vector of the third argument, at an index. -/
theorem sign_b (x2 : (⟨S4096, .f32⟩ : BufTy).Contents (Elt Ideal)) (j : S4096.Idx) :
    val_main_v7 (F := Ideal) x2 j = sgn (x2 j) := by
  rw [val_main_v7_apply, val_main_v6_apply, val_main_v5_apply, val_main_v4_apply, val_main_cst_2_apply,
    val_main_call1_v0_apply, val_main_cst_3_apply, val_main_call1_v1_apply, val_main_cst_4_apply,
    Ideal.ofBits_def (φ := .f32) 0x3F800000#32, Ideal.ofBits_def (φ := .f32) 0xBF800000#32, one_f32, negOne_f32]
  rfl

/-- The bias's sign, spread over the rows, at an index. -/
theorem bias_at (x2 : (⟨S4096, .f32⟩ : BufTy).Contents (Elt Ideal)) (i : S8192x4096.Idx) :
    val_main_v14 (F := Ideal) x2 i = sgn (x2 (ix1 (n := 4096) (i 1))) := by
  rw [val_main_v14_apply, val_main_v13_apply, sign_b]
  exact congrArg (fun j => sgn (x2 j)) (bidx_eq i)

/-- The contraction of the two sign matrices, at an index. -/
theorem dot_at (x0 : (⟨S8192x4096, .f32⟩ : BufTy).Contents (Elt Ideal))
    (x1 : (⟨S4096x4096, .f32⟩ : BufTy).Contents (Elt Ideal)) (i : S8192x4096.Idx) :
    val_main_v12 (F := Ideal) x0 x1 i
      = ∑ k : Fin 4096, sgn (x0 (ix2 (n0 := 8192) (n1 := 4096) (i 0) k)) * sgn (x1 (ix2 (n0 := 4096) (n1 := 4096) k (i 1))) := by
  rw [val_main_v12_apply]
  refine Finset.sum_congr rfl fun k _ => ?_
  rw [sign_x, sign_w, lidx_eq, ridx_eq]

/-- Before the first argument is subtracted and added back, the reference holds the layer. -/
theorem sum_is_layer (x0 : (⟨S8192x4096, .f32⟩ : BufTy).Contents (Elt Ideal))
    (x1 : (⟨S4096x4096, .f32⟩ : BufTy).Contents (Elt Ideal))
    (x2 : (⟨S4096, .f32⟩ : BufTy).Contents (Elt Ideal)) (i : S8192x4096.Idx) :
    val_main_v15 (F := Ideal) x0 x1 x2 i = layer x0 x1 x2 i := by
  rw [val_main_v15_apply, dot_at, bias_at, Ideal.addf_def]
  rfl

/-- The reference's result is the layer, provided every entry of its first argument is a real number. -/
theorem ref_is_layer (x0 : (⟨S8192x4096, .f32⟩ : BufTy).Contents (Elt Ideal))
    (x1 : (⟨S4096x4096, .f32⟩ : BufTy).Contents (Elt Ideal))
    (x2 : (⟨S4096, .f32⟩ : BufTy).Contents (Elt Ideal))
    (hx : ∀ i, ∃ r : ℝ, x0 i = (r : EReal)) :
    val_main_v17 (F := Ideal) x0 x1 x2 = layer x0 x1 x2 := by
  funext i
  rw [val_main_v17_apply, val_main_v16_apply, sum_is_layer, Ideal.addf_def, Ideal.subf_def]
  exact sub_add_real _ _ (hx i)

end Cert.BinLayer.Ref

end
-- ==== Proof.FiniteInputs.lean ====
/-
  The precondition makes every entry of the first argument a real number.

  The precondition is the conjunction of three statements of one form, one per argument: every entry's magnitude
  is strictly below +infinity. On the extended reals the magnitude of x is the larger of x and -x, which is +infinity
  exactly when x is one of the two infinities; so an entry whose magnitude is strictly below +infinity is a real
  number. Only the statement about the first argument is used here.
-/
import proofs.«111512_j77232101917001_2_alg».proof.Pre_finite_inputs
import proofs.«111512_j77232101917001_2_alg».proof.Proof.Gen.Pre_finite_inputs
import Idealize.ShloMosaic.Lib.ReduceAll
import Idealize.ShloMosaic.Lib.ValueIdx
import Idealize.ShloMosaic.PureOps.Ideal

noncomputable section

namespace Cert.BinLayer.Finite

open Idealize.ShloMosaic Cert.Pre_finite_inputs

/-- The shape with no axes has one index. -/
instance : Subsingleton S_.Idx := ⟨fun a b => funext fun d => d.elim0⟩

/-- The word the precondition compares against denotes +infinity. -/
theorem inf_f32 : Ideal.ofBits .f32 0x7F800000#32 = (⊤ : EReal) := by
  simp [Ideal.ofBits, Ideal.ieee]

/-- An extended real whose magnitude is strictly below +infinity is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- A comparison word that is 1 was made from a true statement. -/
theorem of_ofBool_eq_one {p : Prop} [Decidable p] (h : BitVec.ofBool (decide p) = 1#1) : p := by
  by_contra hn
  rw [decide_eq_false hn] at h
  exact absurd h (by decide)

/-- Under the precondition every entry of the first argument is a real number. -/
theorem arg0_real (a0 : FVec Ideal S8192x4096 .f32) (a1 : FVec Ideal S4096x4096 .f32) (a2 : FVec Ideal S4096 .f32)
    (h : fn (F := Ideal) a0 a1 a2 = fun _ => 1#1) (i : S8192x4096.Idx) : ∃ r : ℝ, a0 i = (r : EReal) := by
  -- the predicate's one value, unfolded into the conjunction of its three parts
  have e := congrFun h ValueIdx.ix0
  dsimp only [fn, andi] at e
  obtain ⟨e01, -⟩ := IntOp.andi_eq_one.1 e
  obtain ⟨e0, -⟩ := IntOp.andi_eq_one.1 e01
  -- the part about the first argument holds at every index
  have hi := Host.reduce_andi_all _ _ _ _ _ e0 i
  -- at index i it says: the larger of the entry and its negation is strictly below the compared word
  have hlt : max (a0 i) (-(a0 i)) < Ideal.ofBits .f32 0x7F800000#32 := of_ofBool_eq_one hi
  rw [inf_f32] at hlt
  exact real_of_abs_lt_top _ hlt

end Cert.BinLayer.Finite

end
-- ==== Proof.lean ====
/-
  A binarized dense layer: the kernel against its reference, on the extended reals.

  Both programs replace every entry of the input x [8192, 4096], of the weights W [4096, 4096] and of the bias
  b [4096] by its sign (1 where the entry is at least zero, -1 elsewhere) and compute, at row r and column c,

      sum over k < 4096 of  sign x[r,k] * sign W[k,c]   +   sign b[c]                       (the layer, Proof/Spec.lean).

  The kernel takes the signs on the host, then runs a 4 x 4 x 4 grid: row-blocks of 2048, column-blocks of 1024
  and four steps of 1024 over the contraction axis. It keeps a running block in a scratch buffer — zeroed at the
  first step, each step adding the product of its two input blocks — and at the fourth step adds the bias row and
  writes the block out. The four products are the four quarters of the sum over k (Proof/Accumulate.lean,
  Proof/Final.lean); regrouping a finite sum of extended reals needs no finiteness. The kernel spells 1 and -1 for x
  and W as sixteen-bit words, the reference as thirty-two-bit words: the same two numbers (Proof/FoundLayer.lean).
  The reference contracts in one operation, adds the bias, then subtracts x[r,c] and adds it back; that pair cancels
  exactly when x[r,c] is a real number, which is what the precondition says of every entry of x
  (Proof/FiniteInputs.lean, Proof/RefLayer.lean) — the one place the precondition is used.
  No operation was rewritten for the idealized kernel, so the preservation claim has nothing to state.
-/
import proofs.«111512_j77232101917001_2_alg».proof.Defs
import proofs.«111512_j77232101917001_2_alg».proof.Proof.Gen.Kernel
import proofs.«111512_j77232101917001_2_alg».proof.Proof.Gen.Kernel.Skeleton
import proofs.«111512_j77232101917001_2_alg».proof.Proof.Gen.Kernel.Launch
import proofs.«111512_j77232101917001_2_alg».proof.Proof.Gen.Kernel.Points
import proofs.«111512_j77232101917001_2_alg».proof.Proof.Gen.Kernel.Frame
import proofs.«111512_j77232101917001_2_alg».proof.Proof.Gen.KernelIdeal
import proofs.«111512_j77232101917001_2_alg».proof.Proof.Gen.KernelIdeal.Skeleton
import proofs.«111512_j77232101917001_2_alg».proof.Proof.Gen.KernelIdeal.Launch
import proofs.«111512_j77232101917001_2_alg».proof.Proof.Gen.KernelIdeal.Points
import proofs.«111512_j77232101917001_2_alg».proof.Proof.Gen.KernelIdeal.Frame
import proofs.«111512_j77232101917001_2_alg».proof.Proof.Gen.ReferenceIdeal
import proofs.«111512_j77232101917001_2_alg».proof.Proof.Gen.Pre_finite_inputs
import proofs.«111512_j77232101917001_2_alg».proof.Proof.Gen.KernelIdeal.Value
import proofs.«111512_j77232101917001_2_alg».proof.Proof.Gen.ReferenceIdeal.Read
import proofs.«111512_j77232101917001_2_alg».proof.Proof.Final
import proofs.«111512_j77232101917001_2_alg».proof.Proof.RefLayer
import proofs.«111512_j77232101917001_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the first of them real everywhere, both programs end with
    the layer of the arguments in their result arrays. -/
theorem algebraic : Cert.algebraic_KernelIdeal_ReferenceIdeal := by
  intro m ρ m' ρ' hpre hagree
  refine ⟨fun c => Cert.BinLayer.Kernel.result m c, Cert.BinLayer.Kernel.run m ρ, ?_⟩
  refine (θ_run Cert.ReferenceIdeal.defs _ _).mono (fun _ h c => ⟨(h c).1.trans ?_, (h c).2⟩)
    (Cert.ReferenceIdeal.Value.run (F := Ideal) m' ρ')
  have hx : ∀ i, ∃ r : ℝ, m' ((c.tc : Thread Cert.ReferenceIdeal.nD Cert.ReferenceIdeal.τ).loc Cert.ReferenceIdeal.main_arg0) i = (r : EReal) := by
    intro i
    rw [(hagree c).1]
    exact Cert.BinLayer.Finite.arg0_real _ _ _ (hpre c) i
  rw [Cert.ReferenceIdeal.Read.val_main_v17_eq, Cert.BinLayer.Ref.ref_is_layer _ _ _ hx, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
